-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S4096 : Shape := ⟨1, ![4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S8192x4096 .f32) (main_arg1 : FVec F S16384x4096 .f32) (main_arg2 : FVec F S4096 .f32) (main_arg3 : FVec F S16384 .f32) (main_arg4 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_v13 main_v16
-- ==== Kernel.lean ====
abbrev S8192x4096 : Shape := ⟨2, ![8192, 4096]⟩
abbrev S16384x4096 : Shape := ⟨2, ![16384, 4096]⟩
abbrev S4096 : Shape := ⟨1, ![4096]⟩
abbrev S16384 : Shape := ⟨1, ![16384]⟩
abbrev S1x4096 : Shape := ⟨2, ![1, 4096]⟩
abbrev S1x16384 : Shape := ⟨2, ![1, 16384]⟩
abbrev S8192x16384 : Shape := ⟨2, ![8192, 16384]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S4096, .f32⟩
  | .hbm, ⟨3, _⟩ => ⟨S16384, .f32⟩
  | .hbm, ⟨4, _⟩ => ⟨S16384, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S16384x4096, .bf16⟩
  | .hbm, ⟨10, _⟩ => ⟨S1x16384, .f32⟩
  | .hbm, ⟨11, _⟩ => ⟨S1x16384, .f32⟩
  | .hbm, ⟨12, _⟩ => ⟨S8192x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bitsLt_bf16_f32 : FTy.bits .bf16 < FTy.bits .f32
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x16384.size a
  hwx0_4 : ∀ i : grid0.Coords, EltTy.bits .f32 = 32 ∨ (Rect.block (s := S8192x16384) S512x1024.size (cc0_transform_4 i) (hinb0_4 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v3) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S4096 : Shape := ⟨1, ![4096]⟩
abbrev S16384 : Shape := ⟨1, ![16384]⟩
abbrev S1x4096 : Shape := ⟨2, ![1, 4096]⟩
abbrev S8192x16384 : Shape := ⟨2, ![8192, 16384]⟩
abbrev S1x16384 : Shape := ⟨2, ![1, 16384]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S4096, .f32⟩
  | .hbm, ⟨3, _⟩ => ⟨S16384, .f32⟩
  | .hbm, ⟨4, _⟩ => ⟨S16384, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x16384, .f32⟩
  | .hbm, ⟨9, _⟩ => ⟨S1x16384, .f32⟩
  | .hbm, ⟨10, _⟩ => ⟨S8192x16384, .f32⟩
  | .hbm, ⟨11, _⟩ => ⟨S8192x16384, .f32⟩
  | .hbm, ⟨12, _⟩ => ⟨S1x16384, .f32⟩
  | .hbm, ⟨13, _⟩ => ⟨S8192x16384, .f32⟩
  | .hbm, ⟨14, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.Spec.lean ====
/-
  The function both programs compute, on the extended reals.

  For activations `x : [8192, 4096]`, a sign matrix `s : [16384, 4096]`, an input scale `g : [4096]`, an output scale
  `h : [16384]` and a bias `b : [16384]`, entry `(t, o)` of the result is

      (∑ k < 4096, (x[t, k] · g[k]) · s[o, k]) · h[o] + b[o].

  The product `x[t, k] · g[k]` is taken first, then multiplied by the sign, the terms are summed over `k`, and the sum is
  scaled and shifted once. Nothing is distributed or cancelled, so the formula means the same whether or not its inputs
  are finite.
-/
import Idealize.ShloMosaic.PureOps.Ideal
import Idealize.ShloMosaic.Lib.ValueIdx

noncomputable section

open scoped BigOperators

namespace Cert.SignProjection

open Idealize.ShloMosaic Idealize.ShloMosaic.ValueIdx

/-- Entry `(t, o)`: row `t` of the scaled activations against row `o` of the sign matrix, then the output scale and the bias
    of column `o`. -/
def entry (x : FVec Ideal ⟨2, ![8192, 4096]⟩ .f32) (s : FVec Ideal ⟨2, ![16384, 4096]⟩ .f32)
    (g : FVec Ideal ⟨1, ![4096]⟩ .f32) (h b : FVec Ideal ⟨1, ![16384]⟩ .f32) (t : Fin 8192) (o : Fin 16384) : EReal :=
  (∑ k : Fin 4096, (x (ix2 t k) * g (ix1 k)) * s (ix2 o k)) * h (ix1 o) + b (ix1 o)

/-- The whole result array: `entry` at each index's two coordinates. -/
def proj (x : FVec Ideal ⟨2, ![8192, 4096]⟩ .f32) (s : FVec Ideal ⟨2, ![16384, 4096]⟩ .f32)
    (g : FVec Ideal ⟨1, ![4096]⟩ .f32) (h b : FVec Ideal ⟨1, ![16384]⟩ .f32) : FVec Ideal ⟨2, ![8192, 16384]⟩ .f32 :=
  fun i => entry x s g h b (i 0) (i 1)

/-- At an index given by its coordinates the array is the entry. -/
theorem proj_ix2 (x : FVec Ideal ⟨2, ![8192, 4096]⟩ .f32) (s : FVec Ideal ⟨2, ![16384, 4096]⟩ .f32)
    (g : FVec Ideal ⟨1, ![4096]⟩ .f32) (h b : FVec Ideal ⟨1, ![16384]⟩ .f32) (t : Fin 8192) (o : Fin 16384) :
    proj x s g h b (ix2 t o) = entry x s g h b t o := rfl

end Cert.SignProjection

end
-- ==== Proof.RefValue.lean ====
/-
  The reference's result, read one operation at a time, is the specification.

  The reference scales the activations by the input scale, contracts the scaled activations with the sign matrix over the
  4096 input features, multiplies by the output scale and adds the bias. Each of its ten operations reads, at an index, its
  operands at indices computed from that index; composing those index maps at `(t, o)` gives `(t, k)` and `(o, k)` for
  the two factors of the contraction's term `k`, `k` for the input scale, and `o` for the output scale and the bias —
  which is the specification's entry `(t, o)`, operation for operation.
-/
import proofs.«121296_j39891656245355_1_alg».proof.Proof.Gen.ReferenceIdeal.Read
import proofs.«121296_j39891656245355_1_alg».proof.Proof.Spec

noncomputable section

open scoped BigOperators

namespace Cert.ReferenceIdeal.RefValue

open Cert.ReferenceIdeal Cert.ReferenceIdeal.Read Idealize.ShloMosaic Idealize.ShloMosaic.ValueIdx Cert.SignProjection

/-- The contraction's left factor at term `k` of entry `(t, o)` sits at `(t, k)`. -/
theorem left_index (t : Fin 8192) (o : Fin 16384) (k : Fin 4096) : lidx_main_v3 (ix2 t o) k = ix2 t k :=
  funext fun a => by match a with | ⟨0, _⟩ => rfl | ⟨1, _⟩ => rfl

/-- The contraction's right factor at term `k` of entry `(t, o)` sits at `(o, k)`. -/
theorem right_index (t : Fin 8192) (o : Fin 16384) (k : Fin 4096) : ridx_main_v3 (ix2 t o) k = ix2 o k :=
  funext fun a => by match a with | ⟨0, _⟩ => rfl | ⟨1, _⟩ => rfl

/-- The input scale broadcast along the rows is read, at `(t, k)`, at `k`. -/
theorem in_scale_index (t : Fin 8192) (k : Fin 4096) : idx_main_v0 (idx_main_v1 (ix2 t k)) = ix1 k :=
  funext fun a => by match a with | ⟨0, _⟩ => rfl

/-- The output scale broadcast along the rows is read, at `(t, o)`, at `o`. -/
theorem out_scale_index (t : Fin 8192) (o : Fin 16384) : idx_main_v4 (idx_main_v5 (ix2 t o)) = ix1 o :=
  funext fun a => by match a with | ⟨0, _⟩ => rfl

/-- The bias broadcast along the rows is read, at `(t, o)`, at `o`. -/
theorem bias_index (t : Fin 8192) (o : Fin 16384) : idx_main_v7 (idx_main_v8 (ix2 t o)) = ix1 o :=
  funext fun a => by match a with | ⟨0, _⟩ => rfl

/-- The reference's last stage is the specification, as whole arrays. -/
theorem result_is_proj (x : FVec Ideal S8192x4096 .f32) (s : FVec Ideal S16384x4096 .f32) (g : FVec Ideal S4096 .f32)
    (h b : FVec Ideal S16384 .f32) :
    val_main_v9 (F := Ideal) x s g h b = proj x s g h b := by
  funext i
  obtain ⟨t, o, rfl⟩ : ∃ (t : Fin 8192) (o : Fin 16384), i = ix2 t o := ⟨i 0, i 1, eq_ix2 i⟩
  rw [proj_ix2, val_main_v9_apply, val_main_v6_apply, val_main_v3_apply, val_main_v5_apply, val_main_v4_apply,
    val_main_v8_apply, val_main_v7_apply, out_scale_index, bias_index]
  simp only [left_index, right_index, val_main_v2_apply, val_main_v1_apply, val_main_v0_apply, in_scale_index]
  rfl

end Cert.ReferenceIdeal.RefValue

end
-- ==== Proof.Tile.lean ====
/-
  One output tile from the four blocks the body loads.

  At a grid point the body holds a `[512, 4096]` block of scaled activations, a `[1024, 4096]` block of signs and two
  `[1, 1024]` rows (output scale, bias). It contracts the first two over their common axis of length 4096 into a zero
  accumulator, multiplies by the scale row repeated down the 512 rows and adds the bias row repeated likewise. So entry
  `(p, q)` of the `[512, 1024]` tile is

      (∑ k < 4096, xb[p, k] · sb[q, k]) · hb[0, q] + bb[0, q].

  The contraction's index set is the one-axis shape `[4096]`; the sum over it is re-indexed by its one coordinate.
-/
import proofs.«121296_j39891656245355_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The body's contraction: both operands contracted on their second axis, rows of the first against rows of the second. -/
abbrev dims : DotDims S512x4096 S1024x4096 S512x1024 := dot_S512x4096_S1024x4096_S512x1024_1_1_0_0_n_n

/-- The left operand's row is the tile entry's row. -/
theorem left_row (j : S512x1024.Idx) (κ : dims.contr.Idx) : (dims.lhsIdx j κ 0).val = (j 0).val := by
  unfold DotDims.lhsIdx
  rw [dif_neg (show ¬(0 : Fin S512x4096.rank) ∈ dims.lhsBatch by decide),
    dif_pos (show (0 : Fin S512x4096.rank) ∈ dims.lhsNonContracting by decide)]
  rfl

/-- The left operand's column is the contraction's coordinate. -/
theorem left_col (j : S512x1024.Idx) (κ : dims.contr.Idx) : (dims.lhsIdx j κ 1).val = (κ ⟨0, by decide⟩).val :=
  dims.lhsIdx_val_of_single rfl j κ

/-- The right operand's row is the tile entry's column. -/
theorem right_row (j : S512x1024.Idx) (κ : dims.contr.Idx) : (dims.rhsIdx j κ 0).val = (j 1).val := by
  unfold DotDims.rhsIdx
  rw [dif_neg (show ¬(0 : Fin S1024x4096.rank) ∈ dims.rhsBatch by decide),
    dif_pos (show (0 : Fin S1024x4096.rank) ∈ dims.rhsNonContracting by decide)]
  rfl

/-- The right operand's column is the contraction's coordinate. -/
theorem right_col (j : S512x1024.Idx) (κ : dims.contr.Idx) : (dims.rhsIdx j κ 1).val = (κ ⟨0, by decide⟩).val :=
  dims.rhsIdx_val_of_single rfl j κ

/-- The contraction into a zero accumulator, at `(p, q)`: row `p` of the first block against row `q` of the second. -/
theorem dot_entry (xb : FVec Ideal S512x4096 .bf16) (sb : FVec Ideal S1024x4096 .bf16) (p : Fin 512) (q : Fin 1024) :
    matmul (F := Ideal) dims none xb sb (constant S512x1024 .f32 0x00000000#32) (ix2 p q)
      = ∑ k : Fin 4096, xb (ix2 p k) * sb (ix2 q k) := by
  refine (Ideal.matmul_constant_zero_apply dims none xb sb (ix2 p q)).trans ?_
  rw [← Equiv.sum_comp (contrEquiv1 dims 4096 rfl rfl).symm]
  refine Finset.sum_congr rfl fun k _ => ?_
  have hk := contrEquiv1_symm_val dims 4096 rfl rfl k
  have el : dims.lhsIdx (ix2 p q) ((contrEquiv1 dims 4096 rfl rfl).symm k) = ix2 p k := funext fun a => Fin.ext (by
    match a with
    | ⟨0, _⟩ => exact left_row _ _
    | ⟨1, _⟩ => exact (left_col _ _).trans hk)
  have er : dims.rhsIdx (ix2 p q) ((contrEquiv1 dims 4096 rfl rfl).symm k) = ix2 q k := funext fun a => Fin.ext (by
    match a with
    | ⟨0, _⟩ => exact right_row _ _
    | ⟨1, _⟩ => exact (right_col _ _).trans hk)
  rw [el, er]

/-- The body's stored value at `(p, q)`. -/
theorem tile_entry (xb : FVec Ideal S512x4096 .bf16) (sb : FVec Ideal S1024x4096 .bf16) (hb bb : FVec Ideal S1x1024 .f32)
    (p : Fin 512) (q : Fin 1024) :
    k0_pay1 (F := Ideal) xb sb hb bb (ix2 p q)
      = (∑ k : Fin 4096, xb (ix2 p k) * sb (ix2 q k)) * hb (ix2 (0 : Fin 1) q) + bb (ix2 (0 : Fin 1) q) := by
  unfold k0_pay1
  rw [shapeCast_self, shapeCast_self, shapeCast_self, shapeCast_self, addf_apply, mulf_apply, dot_entry,
    broadcastTo_1b_ab_apply, broadcastTo_1b_ab_apply]

end Cert.KernelIdeal.Tile

end
-- ==== Proof.Staged.lean ====
/-
  What the region finds in the four arrays it stages, in terms of the arguments as launched.

  Before the region the program scales the activations by the input scale repeated along the rows and narrows the product
  and the sign matrix to a shorter float format; on the extended reals narrowing changes nothing. It also re-lays the output
  scale and the bias from `[16384]` to one row `[1, 16384]`. So, index by index:

    * scaled activations at `(t, k)`  =  x[t, k] · g[k];
    * signs at `(o, k)`               =  s[o, k];
    * output-scale row at `(0, o)`    =  h[o];       bias row at `(0, o)`  =  b[o].
-/
import proofs.«121296_j39891656245355_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Staged

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The five arguments as launched on a core, and the four staged arrays as the region finds them -/

/-- The activations `x`. -/
abbrev acts (c : Dev nD) : FVec Ideal S8192x4096 .f32 := m ((c : Thread nD τ).loc main_arg0)
/-- The sign matrix `s`. -/
abbrev signs (c : Dev nD) : FVec Ideal S16384x4096 .f32 := m ((c : Thread nD τ).loc main_arg1)
/-- The input scale `g`. -/
abbrev inScale (c : Dev nD) : FVec Ideal S4096 .f32 := m ((c : Thread nD τ).loc main_arg2)
/-- The output scale `h`. -/
abbrev outScale (c : Dev nD) : FVec Ideal S16384 .f32 := m ((c : Thread nD τ).loc main_arg3)
/-- The bias `b`. -/
abbrev bias (c : Dev nD) : FVec Ideal S16384 .f32 := m ((c : Thread nD τ).loc main_arg4)

/-- The scaled activations the first window stages. -/
abbrev stagedActs (c : Dev nD) : FVec Ideal S8192x4096 .bf16 := V m c main_v3
/-- The signs the second window stages. -/
abbrev stagedSigns (c : Dev nD) : FVec Ideal S16384x4096 .bf16 := V m c main_v4
/-- The output-scale row the third window stages. -/
abbrev stagedOutScale (c : Dev nD) : FVec Ideal S1x16384 .f32 := V m c main_v5
/-- The bias row the fourth window stages. -/
abbrev stagedBias (c : Dev nD) : FVec Ideal S1x16384 .f32 := V m c main_v6

/-! ## Each staged array, as a term and at an index -/

/-- A `[4096]` vector repeated along 8192 rows (first laid as one row, then repeated) reads, at `(t, k)`, the vector at `k`. -/
theorem rows_of_vector (g : FVec Ideal S4096 .f32) (t : Fin 8192) (k : Fin 4096) :
    broadcastInDim S8192x4096 ![0, 1] Facts₀.bcast_S1x4096_S8192x4096_0_1
      (broadcastInDim S1x4096 ![1] Facts₀.bcast_S4096_S1x4096_1 g) (ix2 t k) = g (ix1 k) :=
  (broadcastInDim_apply _ Facts₀.bcast_S1x4096_S8192x4096_0_1 _ (ix2 t k) (ix2 (0 : Fin 1) k) (fun a => by
    match a with
    | ⟨0, _⟩ => show 0 = if (1 : Nat) = 1 then 0 else t.val; rw [if_pos rfl]
    | ⟨1, _⟩ => show k.val = if (4096 : Nat) = 1 then 0 else k.val; rw [if_neg (by decide)])).trans
  (broadcastInDim_apply _ Facts₀.bcast_S4096_S1x4096_1 g (ix2 (0 : Fin 1) k) (ix1 k) (fun a => by
    match a with
    | ⟨0, _⟩ => show k.val = if (4096 : Nat) = 1 then 0 else k.val; rw [if_neg (by decide)]))

/-- The staged activations are the launched ones times the input scale repeated along the rows, narrowed. -/
theorem scaled_term (c : Dev nD) :
    stagedActs m c
      = truncf .bf16 (mulf (acts m c)
          (broadcastInDim S8192x4096 ![0, 1] Facts₀.bcast_S1x4096_S8192x4096_0_1
            (broadcastInDim S1x4096 ![1] Facts₀.bcast_S4096_S1x4096_1 (inScale m c))))
          Facts₀.bitsLt_bf16_f32 := by
  dsimp only [stagedActs, acts, inScale, Gen.V, Gen.hostOps0]; after_results

/-- The staged activations at `(t, k)`: the activation times the input scale of feature `k`. -/
theorem scaled_at (c : Dev nD) (t : Fin 8192) (k : Fin 4096) :
    stagedActs m c (ix2 t k) = acts m c (ix2 t k) * inScale m c (ix1 k) := by
  refine (congrFun (scaled_term m c) (ix2 t k)).trans ?_
  rw [truncf_apply, mulf_apply, rows_of_vector]

/-- The staged signs are the launched sign matrix, narrowed. -/
theorem signs_term (c : Dev nD) :
    stagedSigns m c = truncf .bf16 (signs m c) Facts₀.bitsLt_bf16_f32 := by
  dsimp only [stagedSigns, signs, Gen.V, Gen.hostOps0]; after_results

/-- The staged signs at an index are the launched ones there. -/
theorem signs_at (c : Dev nD) (o : Fin 16384) (k : Fin 4096) :
    stagedSigns m c (ix2 o k) = signs m c (ix2 o k) := by
  refine (congrFun (signs_term m c) (ix2 o k)).trans ?_
  rw [truncf_apply]

/-- The staged output-scale row is the launched output scale laid as one row. -/
theorem out_scale_term (c : Dev nD) :
    stagedOutScale m c = shapeCast S1x16384 (outScale m c) Facts₀.shapeCasts_S16384_S1x16384 := by
  dsimp only [stagedOutScale, outScale, Gen.V, Gen.hostOps0]; after_results; rfl

/-- The output-scale row at `(0, o)` is the output scale of column `o`. -/
theorem out_scale_at (c : Dev nD) (o : Fin 16384) :
    stagedOutScale m c (ix2 (0 : Fin 1) o) = outScale m c (ix1 o) :=
  (congrFun (out_scale_term m c) (ix2 (0 : Fin 1) o)).trans (shapeCast_a_1a_apply _ _ 0 o)

/-- The staged bias row is the launched bias laid as one row. -/
theorem bias_term (c : Dev nD) :
    stagedBias m c = shapeCast S1x16384 (bias m c) Facts₀.shapeCasts_S16384_S1x16384 := by
  dsimp only [stagedBias, bias, Gen.V, Gen.hostOps0]; after_results; rfl

/-- The bias row at `(0, o)` is the bias of column `o`. -/
theorem bias_at (c : Dev nD) (o : Fin 16384) :
    stagedBias m c (ix2 (0 : Fin 1) o) = bias m c (ix1 o) :=
  (congrFun (bias_term m c) (ix2 (0 : Fin 1) o)).trans (shapeCast_a_1a_apply _ _ 0 o)

end Cert.KernelIdeal.Staged

end
-- ==== Proof.Blocks.lean ====
/-
  From tiles to the whole result array.

  The grid has 16 × 16 points; point `t` has coordinates `(t / 16, t % 16)`. At that point the body reads rows
  `512·(t/16) …` of the scaled activations, rows `1024·(t%16) …` of the signs and columns `1024·(t%16) …` of the scale
  and bias rows, all 4096 features each time, and writes the `[512, 1024]` tile of the result with its corner at
  `(512·(t/16), 1024·(t%16))`. Entry `(p, q)` of that tile therefore is the specification's entry at
  `(512·(t/16) + p, 1024·(t%16) + q)`: the point writes back exactly its tile of the specification. The 256 tiles cover
  the `[8192, 16384]` array — index `(r, o)` lies in the tile of point `16·(r/512) + o/1024` — so after the run the
  array is the specification everywhere.
-/
import proofs.«121296_j39891656245355_1_alg».proof.Proof.Gen.KernelIdeal.Value
import proofs.«121296_j39891656245355_1_alg».proof.Proof.Spec
import proofs.«121296_j39891656245355_1_alg».proof.Proof.Tile
import proofs.«121296_j39891656245355_1_alg».proof.Proof.Staged

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Cert.SignProjection
open Idealize.ShloMosaic.Pipeline (Dat)

variable (m : (ℓ : Loc nD τ sig) → Buf (Elt Ideal) ℓ) (ρ : Dev nD → PrngReg)

/-- The specification at the arguments as launched on core `c`. -/
abbrev spec (c : Dev nD) : FVec Ideal ⟨2, ![8192, 16384]⟩ .f32 :=
  proj (Staged.acts m c) (Staged.signs m c) (Staged.inScale m c) (Staged.outScale m c) (Staged.bias m c)

theorem corner_zero : (![0, 0] : Fin 2 → Nat) = fun _ => 0 := funext fun a => by fin_cases a <;> rfl

/-- The block index of every window at every grid point, decided over the 256 points: the result's tile is
    `(t / 16, t % 16)`; the activations follow its row, the signs and the two rows follow its column, and each input
    spans all features (block 0 on that axis). -/
theorem block_indices : ∀ t : Fin cfg0.N,
    win0_4.index t (0 : Fin 2) = t.val / 16 ∧ win0_4.index t (1 : Fin 2) = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = 0 ∧ win0_3.index t (1 : Fin 2) = t.val % 16 :=
  (by decide +kernel : ∀ t : Fin grid0.N, _)

/-- A grid point's position is below 256. -/
theorem point_lt (t : Fin cfg0.N) : t.val < 256 := lt_of_lt_of_eq t.isLt N_0

/-! ## What each input block holds, in terms of the launched arguments -/

/-- Row `p` of the activations' block at point `t` is row `512·(t/16) + p` of the scaled activations. -/
theorem act_block (c : Dev nD) (t : Fin cfg0.N) (p : Fin 512) (k : Fin 4096) (r : Fin 8192)
    (hr : r.val = t.val / 16 * 512 + p.val) :
    iblk m c 0 t (ix2 p k) = Staged.acts m c (ix2 r k) * Staged.inScale m c (ix1 k) := by
  obtain ⟨-, -, e0, e1, -⟩ := block_indices t
  have he : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 4096 + 1 * k.val = k.val; omega
  show Staged.stagedActs m c (((cfg0.win 0).blk t).view.emb (ix2 p k)) = _
  rw [he]
  exact Staged.scaled_at m c r k

/-- Row `q` of the signs' block at point `t` is row `1024·(t%16) + q` of the sign matrix. -/
theorem sign_block (c : Dev nD) (t : Fin cfg0.N) (q : Fin 1024) (k : Fin 4096) (o : Fin 16384)
    (ho : o.val = t.val % 16 * 1024 + q.val) :
    iblk m c 1 t (ix2 q k) = Staged.signs m c (ix2 o k) := by
  obtain ⟨-, -, -, -, e0, e1, -⟩ := block_indices t
  have he : ((cfg0.win 1).blk t).view.emb (ix2 q k) = ix2 o k := by
    funext a; apply Fin.ext
    match a with
    | ⟨0, _⟩ => show win0_1.index t (0 : Fin 2) * 1024 + 1 * q.val = o.val; omega
    | ⟨1, _⟩ => show win0_1.index t (1 : Fin 2) * 4096 + 1 * k.val = k.val; omega
  show Staged.stagedSigns m c (((cfg0.win 1).blk t).view.emb (ix2 q k)) = _
  rw [he]
  exact Staged.signs_at m c o k

/-- Column `q` of the output-scale block at point `t` is the output scale of column `1024·(t%16) + q`. -/
theorem out_scale_block (c : Dev nD) (t : Fin cfg0.N) (q : Fin 1024) (o : Fin 16384)
    (ho : o.val = t.val % 16 * 1024 + q.val) :
    iblk m c 2 t (ix2 (0 : Fin 1) q) = Staged.outScale m c (ix1 o) := by
  obtain ⟨-, -, -, -, -, -, e0, e1, -⟩ := block_indices t
  have he : ((cfg0.win 2).blk t).view.emb (ix2 (0 : Fin 1) q) = ix2 (0 : Fin 1) o := by
    funext a; apply Fin.ext
    match a with
    | ⟨0, _⟩ => show win0_2.index t (0 : Fin 2) * 1 + 1 * 0 = 0; omega
    | ⟨1, _⟩ => show win0_2.index t (1 : Fin 2) * 1024 + 1 * q.val = o.val; omega
  show Staged.stagedOutScale m c (((cfg0.win 2).blk t).view.emb (ix2 (0 : Fin 1) q)) = _
  rw [he]
  exact Staged.out_scale_at m c o

/-- Column `q` of the bias block at point `t` is the bias of column `1024·(t%16) + q`. -/
theorem bias_block (c : Dev nD) (t : Fin cfg0.N) (q : Fin 1024) (o : Fin 16384)
    (ho : o.val = t.val % 16 * 1024 + q.val) :
    iblk m c 3 t (ix2 (0 : Fin 1) q) = Staged.bias m c (ix1 o) := by
  obtain ⟨-, -, -, -, -, -, -, -, e0, e1⟩ := block_indices t
  have he : ((cfg0.win 3).blk t).view.emb (ix2 (0 : Fin 1) q) = ix2 (0 : Fin 1) o := by
    funext a; apply Fin.ext
    match a with
    | ⟨0, _⟩ => show win0_3.index t (0 : Fin 2) * 1 + 1 * 0 = 0; omega
    | ⟨1, _⟩ => show win0_3.index t (1 : Fin 2) * 1024 + 1 * q.val = o.val; omega
  show Staged.stagedBias m c (((cfg0.win 3).blk t).view.emb (ix2 (0 : Fin 1) q)) = _
  rw [he]
  exact Staged.bias_at m c o

/-! ## The tile a point writes back -/

/-- What point `t` writes back is its tile of the specification. -/
theorem tile_written (c : Dev nD) (t : Fin cfg0.N) :
    (dats m 0 c).flushed 4 t = ((cfg0.win 4).blk t).view.read (Elt Ideal) (spec m c) := by
  rw [Value.flushed4]
  unfold out0_4
  rw [View.canon_unit_zero corner_zero]
  simp only [View.ld_unit_zero (S := S512x4096) corner_zero, View.ld_unit_zero (S := S1024x4096) corner_zero,
    View.ld_unit_zero (S := S1x1024) corner_zero]
  obtain ⟨e0, e1, -⟩ := block_indices t
  have ht := point_lt t
  funext j
  obtain ⟨p, q, rfl⟩ : ∃ (p : Fin 512) (q : Fin 1024), j = ix2 p q := ⟨j 0, j 1, eq_ix2 j⟩
  have hr : t.val / 16 * 512 + p.val < 8192 := by omega
  have ho : t.val % 16 * 1024 + q.val < 16384 := by omega
  have he : ((cfg0.win 4).blk t).view.emb (ix2 p q)
      = ix2 (⟨t.val / 16 * 512 + p.val, hr⟩ : Fin 8192) (⟨t.val % 16 * 1024 + q.val, ho⟩ : Fin 16384) := by
    funext a; apply Fin.ext
    match a with
    | ⟨0, _⟩ => show win0_4.index t (0 : Fin 2) * 512 + 1 * p.val = t.val / 16 * 512 + p.val; omega
    | ⟨1, _⟩ => show win0_4.index t (1 : Fin 2) * 1024 + 1 * q.val = t.val % 16 * 1024 + q.val; omega
  show k0_pay1 (iblk m c 0 t) (iblk m c 1 t) (iblk m c 2 t) (iblk m c 3 t) (ix2 p q)
    = spec m c (((cfg0.win 4).blk t).view.emb (ix2 p q))
  rw [he]
  show _ = entry (Staged.acts m c) (Staged.signs m c) (Staged.inScale m c) (Staged.outScale m c) (Staged.bias m c)
    ⟨t.val / 16 * 512 + p.val, hr⟩ ⟨t.val % 16 * 1024 + q.val, ho⟩
  refine (Tile.tile_entry (iblk m c 0 t) (iblk m c 1 t) (iblk m c 2 t) (iblk m c 3 t) p q).trans ?_
  unfold entry
  rw [out_scale_block m c t q ⟨_, ho⟩ rfl, bias_block m c t q ⟨_, ho⟩ rfl]
  refine congrArg (fun z => z * _ + _) (Finset.sum_congr rfl fun k _ => ?_)
  rw [act_block m c t p k ⟨_, hr⟩ rfl, sign_block m c t q k ⟨_, ho⟩ rfl]

/-! ## The tiles cover the array -/

/-- An index is in point `t`'s tile iff each coordinate is in the tile's range on its axis. -/
theorem mem_tile (t : Fin cfg0.N) (i : S8192x16384.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v7).slice (win0_4.rect t)).set ↔ _
  rw [View.set_slice_whole, Rect.mem_set_unit]
  exact Iff.rfl

/-- Every index of the result lies in the tile of some point, and every point writes its tile back. -/
theorem tiles_cover (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hN : (i 0).val / 512 * 16 + (i 1).val / 1024 < cfg0.N := by
    show (i 0).val / 512 * 16 + (i 1).val / 1024 < grid0.N
    rw [N_0]; omega
  obtain ⟨e0, e1, -⟩ := block_indices ⟨(i 0).val / 512 * 16 + (i 1).val / 1024, hN⟩
  have q0 : win0_4.index ⟨(i 0).val / 512 * 16 + (i 1).val / 1024, hN⟩ (0 : Fin 2)
      = ((i 0).val / 512 * 16 + (i 1).val / 1024) / 16 := e0
  have q1 : win0_4.index ⟨(i 0).val / 512 * 16 + (i 1).val / 1024, hN⟩ (1 : Fin 2)
      = ((i 0).val / 512 * 16 + (i 1).val / 1024) % 16 := e1
  refine ⟨⟨(i 0).val / 512 * 16 + (i 1).val / 1024, hN⟩, flush0_4 _, ?_⟩
  rw [mem_tile]
  intro a
  match a with
  | ⟨0, _⟩ =>
    show win0_4.index ⟨(i 0).val / 512 * 16 + (i 1).val / 1024, hN⟩ (0 : Fin 2) * 512 ≤ (i 0).val
      ∧ (i 0).val < win0_4.index ⟨(i 0).val / 512 * 16 + (i 1).val / 1024, hN⟩ (0 : Fin 2) * 512 + 512
    omega
  | ⟨1, _⟩ =>
    show win0_4.index ⟨(i 0).val / 512 * 16 + (i 1).val / 1024, hN⟩ (1 : Fin 2) * 1024 ≤ (i 1).val
      ∧ (i 1).val < win0_4.index ⟨(i 0).val / 512 * 16 + (i 1).val / 1024, hN⟩ (1 : Fin 2) * 1024 + 1024
    omega

/-! ## The array after the run -/

/-- After the run the result array is the specification. -/
theorem result_array (c : Dev nD) : (dats m 0 c).arrAt 4 cfg0.N = spec m c :=
  (dats m 0 c).arrAt_eq_of_cover 4 (spec m c) (fun t _ => tile_written m c t) tiles_cover

/-- Every weakly fair execution of the idealized kernel's program terminates with the result array at the specification
    of the launched arguments, and the arguments unchanged. -/
theorem run : θ_run defs (onTc (τ := τ) (main (F := Ideal))) ⟨m, fun _ => 0, ρ⟩ fun r => ∀ c : Dev nD,
      r.2.mem ((c : Thread nD τ).loc main_v7) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (Value.run_blocks m ρ)

end Cert.KernelIdeal.Blocks

end
-- ==== Proof.lean ====
/-
  A one-bit linear layer, tiled, against its one-line definition.

  Both programs take activations `x : [8192, 4096]`, a sign matrix `s : [16384, 4096]`, an input scale `g : [4096]`, an
  output scale `h : [16384]` and a bias `b : [16384]`, and both compute, at `(t, o)`,

      (∑ k < 4096, (x[t, k] · g[k]) · s[o, k]) · h[o] + b[o]          (Proof/Spec.lean).

  The reference does it with whole-array operations: scale, contract over the features, scale, shift (Proof/RefValue.lean).
  The kernel scales the activations before its grid, narrows them and the signs to a shorter float format — the identity on
  the extended reals — and then, at each of 16 × 16 grid points, contracts a `[512, 4096]` block of scaled activations with
  a `[1024, 4096]` block of signs over all 4096 features into a zero accumulator and applies the matching 1024 columns of
  scale and bias (Proof/Tile.lean, Proof/Staged.lean). Each point writes back exactly its `[512, 1024]` tile of the
  formula above, and the tiles cover the result (Proof/Blocks.lean). The two sides are the same expression term for
  term — the zero accumulator contributes `0 +` and nothing else differs — so no algebraic law is used and the inputs'
  finiteness is never needed.

  The three programs' termination, absence of faults and unchanged arguments come from the kernel's launch-and-flush
  argument for the two kernel programs and from the reference's run, read back, for the reference. The idealized kernel
  is the kernel's own text read on the extended reals, with no rewrite to account for.
-/
import proofs.«121296_j39891656245355_1_alg».proof.Defs
import proofs.«121296_j39891656245355_1_alg».proof.Proof.Gen.Kernel
import proofs.«121296_j39891656245355_1_alg».proof.Proof.Gen.Kernel.Skeleton
import proofs.«121296_j39891656245355_1_alg».proof.Proof.Gen.Kernel.Launch
import proofs.«121296_j39891656245355_1_alg».proof.Proof.Gen.Kernel.Points
import proofs.«121296_j39891656245355_1_alg».proof.Proof.Gen.Kernel.Frame
import proofs.«121296_j39891656245355_1_alg».proof.Proof.Gen.KernelIdeal
import proofs.«121296_j39891656245355_1_alg».proof.Proof.Gen.KernelIdeal.Skeleton
import proofs.«121296_j39891656245355_1_alg».proof.Proof.Gen.KernelIdeal.Launch
import proofs.«121296_j39891656245355_1_alg».proof.Proof.Gen.KernelIdeal.Points
import proofs.«121296_j39891656245355_1_alg».proof.Proof.Gen.KernelIdeal.Frame
import proofs.«121296_j39891656245355_1_alg».proof.Proof.Gen.ReferenceIdeal
import proofs.«121296_j39891656245355_1_alg».proof.Proof.Gen.KernelIdeal.Value
import proofs.«121296_j39891656245355_1_alg».proof.Proof.Gen.ReferenceIdeal.Run
import proofs.«121296_j39891656245355_1_alg».proof.Proof.Gen.ReferenceIdeal.Read
import proofs.«121296_j39891656245355_1_alg».proof.Proof.Gen.Pre_finite_inputs
import proofs.«121296_j39891656245355_1_alg».proof.Proof.RefValue
import proofs.«121296_j39891656245355_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the five arguments, the idealized kernel and the idealized reference both end with the
    result array at the formula above of those arguments. -/
theorem algebraic : Cert.algebraic_KernelIdeal_ReferenceIdeal := by
  intro m ρ m' ρ' _ hagree
  refine ⟨fun c => Cert.KernelIdeal.Blocks.spec m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_is_proj,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
